-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S256x1 .f32) (main_arg5 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x1 .f32 := Host.absf main_arg4
  let main_cst_6 : FVec F S_ .f32 := constant S_ .f32 0x7F800000#32
  let main_v20 : FVec F S256x1 .f32 := broadcastInDim S256x1 ![] bcast_S_S256x1 main_cst_6
  let main_v21 : IVec S256x1 1 := cmpf .olt main_v19 main_v20
  let main_c_7 : IVec S_ 1 := constantI S_ 1 1#1
  let main_v22 : IVec S_ 1 := (fun x v => Host.reduce IntOp.andi x v reducesTo_S256x1_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S100000x512 .f32) (main_arg1 : FVec F S100000x512 .f32) (main_arg2 : FVec F S512x256 .f32) (main_arg3 : FVec F S256 .f32) (main_arg4 : FVec F S256x1 .f32) (main_arg5 : FVec F S1 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S100000x512 .f32 := Host.absf main_arg1
  let main_cst_0 : FVec F S_ .f32 := constant S_ .f32 0x7F800000#32
  let main_v5 : FVec F S100000x512 .f32 := broadcastInDim S100000x512 ![] bcast_S_S100000x512 main_cst_0
  let main_v6 : IVec S100000x512 1 := cmpf .olt main_v4 main_v5
  let main_c_1 : IVec S_ 1 := constantI S_ 1 1#1
  let main_v7 : IVec S_ 1 := (fun x v => Host.reduce IntOp.andi x v reducesTo_S100000x512_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S100000x512 : Shape := ⟨2, ![100000, 512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S1x256 : Shape := ⟨2, ![1, 256]⟩
abbrev S1x1 : Shape := ⟨2, ![1, 1]⟩
abbrev S1000x512 : Shape := ⟨2, ![1000, 512]⟩
abbrev S1000x256 : Shape := ⟨2, ![1000, 256]⟩
abbrev S1000 : Shape := ⟨1, ![1000]⟩
abbrev S1000x1 : Shape := ⟨2, ![1000, 1]⟩

abbrev nBuf : Space → Nat
  | .hbm => 10
  | .vmem => 10
  | .smem => 0
  | _ => 0

abbrev bufTy : (tb : Table) → Fin (tcTables nBuf tb) → BufTy
  | .hbm, ⟨0, _⟩ => ⟨S100000x512, .f32⟩
  | .hbm, ⟨1, _⟩ => ⟨S100000x512, .f32⟩
  | .hbm, ⟨2, _⟩ => ⟨S512x256, .f32⟩
  | .hbm, ⟨3, _⟩ => ⟨S256, .f32⟩
  | .hbm, ⟨4, _⟩ => ⟨S256x1, .f32⟩
  | .hbm, ⟨5, _⟩ => ⟨S1, .f32⟩
  | .hbm, ⟨6, _⟩ => ⟨S1x256, .f32⟩
  | .hbm, ⟨7, _⟩ => ⟨S1x1, .f32⟩
  | .hbm, ⟨8, _⟩ => ⟨S1x256, .f32⟩
  | .hbm, ⟨9, _⟩ => ⟨S100000x512, .f32⟩
  | .local _ .vmem, ⟨0, _⟩ => ⟨S1000x512, .f32⟩
  | .local _ .vmem, ⟨1, _⟩ => ⟨S1000x512, .f32⟩
  | .local _ .vmem, ⟨2, _⟩ => ⟨S1000x512, .f32⟩
  | .local _ .vmem, ⟨3, _⟩ => ⟨S1000x512, .f32⟩
  | .local _ .vmem, ⟨4, _⟩ => ⟨S512x256, .f32⟩
  | .local _ .vmem, ⟨5, _⟩ => ⟨S1x256, .f32⟩
  | .local _ .vmem, ⟨6, _⟩ => ⟨S1x256, .f32⟩
  | .local _ .vmem, ⟨7, _⟩ => ⟨S1x1, .f32⟩
  | .local _ .vmem, ⟨8, _⟩ => ⟨S1000x512, .f32⟩
  | .local _ .vmem, ⟨9, _⟩ => ⟨S1000x512, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1000x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S256_S1x256 : S256.ShapeCasts S1x256
  shapeCasts_S1_S1x1 : S1.ShapeCasts S1x1
  shapeCasts_S256x1_S1x256 : S256x1.ShapeCasts S1x256
  inb_S512x256_S512x256_0_0 : ∀ a, (![0, 0] : Fin 2 → Nat) a + S512x256.size a ≤ S512x256.size a
  h_S512x256 : 0 < S512x256.numel
  bitsLt_bf16_f32 : FTy.bits .bf16 < FTy.bits .f32
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1000x512_S1000x512_0_0 : ∀ a, (![0, 0] : Fin 2 → Nat) a + S1000x512.size a ≤ S1000x512.size a
  h_S1000x512 : 0 < S1000x512.numel
  broadcasts_S1x256_S1000x256 : S1x256.Broadcasts S1000x256
  reduces_S1000x256_S1000 : S1000x256.Reduces [1] S1000
  shapeCasts_S1000_S1000x1 : S1000.ShapeCasts S1000x1
  broadcasts_S1x1_S1000x1 : S1x1.Broadcasts S1000x1
  broadcasts_S1000x1_S1000x512 : S1000x1.Broadcasts S1000x512
  dot_S1000x512_S512x256_S1000x256_1_0_0_1_n_n_wf : DotDims.WF S1000x512 S512x256 S1000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S100000x512.size a
  hwx0_0 : ∀ i : grid0.Coords, EltTy.bits .f32 = 32 ∨ (Rect.block (s := S100000x512) S1000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x512.size a ≤ S100000x512.size a
  hwx0_1 : ∀ i : grid0.Coords, EltTy.bits .f32 = 32 ∨ (Rect.block (s := S100000x512) S1000x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .f32 = 32 ∨ (Rect.block (s := S512x256) S512x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1000x512.size a ≤ S100000x512.size a
  hwx0_6 : ∀ i : grid0.Coords, EltTy.bits .f32 = 32 ∨ (Rect.block (s := S100000x512) S1000x512.size (cc0_transform_6 i) (hinb0_6 i)).WholeWords (EltTy.packing .f32)

variable [Facts₀]

def dot_S1000x512_S512x256_S1000x256_1_0_0_1_n_n : DotDims S1000x512 S512x256 S1000x256 where
  lhsContracting := [1]
  rhsContracting := [0]
  lhsNonContracting := [0]
  rhsNonContracting := [1]
  lhsBatch := []
  rhsBatch := []
  wf := dot_S1000x512_S512x256_S1000x256_1_0_0_1_n_n_wf

abbrev win0_0 : Pipeline.Window sig grid0 :=
  Pipeline.Window.ofSpec (Memref.whole main_arg0) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1000x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x512 : Shape := ⟨2, ![100000, 512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S100000x256 : Shape := ⟨2, ![100000, 256]⟩
abbrev S1x256 : Shape := ⟨2, ![1, 256]⟩
abbrev S_ : Shape := ⟨0, ![]⟩
abbrev S100000x1 : Shape := ⟨2, ![100000, 1]⟩
abbrev S1x1 : Shape := ⟨2, ![1, 1]⟩

abbrev nBuf : Space → Nat
  | .hbm => 38
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S100000x512, .f32⟩
  | .hbm, ⟨2, _⟩ => ⟨S512x256, .f32⟩
  | .hbm, ⟨3, _⟩ => ⟨S256, .f32⟩
  | .hbm, ⟨4, _⟩ => ⟨S256x1, .f32⟩
  | .hbm, ⟨5, _⟩ => ⟨S1, .f32⟩
  | .hbm, ⟨6, _⟩ => ⟨S100000x256, .f32⟩
  | .hbm, ⟨7, _⟩ => ⟨S1x256, .f32⟩
  | .hbm, ⟨8, _⟩ => ⟨S100000x256, .f32⟩
  | .hbm, ⟨9, _⟩ => ⟨S100000x256, .f32⟩
  | .hbm, ⟨10, _⟩ => ⟨S_, .f32⟩
  | .hbm, ⟨11, _⟩ => ⟨S100000x256, .f32⟩
  | .hbm, ⟨12, _⟩ => ⟨S100000x256, .f32⟩
  | .hbm, ⟨13, _⟩ => ⟨S100000x1, .f32⟩
  | .hbm, ⟨14, _⟩ => ⟨S1x1, .f32⟩
  | .hbm, ⟨15, _⟩ => ⟨S100000x1, .f32⟩
  | .hbm, ⟨16, _⟩ => ⟨S100000x1, .f32⟩
  | .hbm, ⟨17, _⟩ => ⟨S100000x256, .f32⟩
  | .hbm, ⟨18, _⟩ => ⟨S1x256, .f32⟩
  | .hbm, ⟨19, _⟩ => ⟨S100000x256, .f32⟩
  | .hbm, ⟨20, _⟩ => ⟨S100000x256, .f32⟩
  | .hbm, ⟨21, _⟩ => ⟨S_, .f32⟩
  | .hbm, ⟨22, _⟩ => ⟨S100000x256, .f32⟩
  | .hbm, ⟨23, _⟩ => ⟨S100000x256, .f32⟩
  | .hbm, ⟨24, _⟩ => ⟨S100000x1, .f32⟩
  | .hbm, ⟨25, _⟩ => ⟨S1x1, .f32⟩
  | .hbm, ⟨26, _⟩ => ⟨S100000x1, .f32⟩
  | .hbm, ⟨27, _⟩ => ⟨S100000x1, .f32⟩
  | .hbm, ⟨28, _⟩ => ⟨S100000x1, .f32⟩
  | .hbm, ⟨29, _⟩ => ⟨S100000x1, .f32⟩
  | .hbm, ⟨30, _⟩ => ⟨S100000x1, .f32⟩
  | .hbm, ⟨31, _⟩ => ⟨S100000x1, .f32⟩
  | .hbm, ⟨32, _⟩ => ⟨S100000x1, .f32⟩
  | .hbm, ⟨33, _⟩ => ⟨S100000x512, .f32⟩
  | .hbm, ⟨34, _⟩ => ⟨S100000x512, .f32⟩
  | .hbm, ⟨35, _⟩ => ⟨S100000x512, .f32⟩
  | .hbm, ⟨36, _⟩ => ⟨S100000x512, .f32⟩
  | .hbm, ⟨37, _⟩ => ⟨S100000x512, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call1_cst : Ref sig .tc := ⟨.hbm, 21, rfl⟩
abbrev main_call1_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S100000x1_S100000x512_0_1 : S100000x1.BroadcastsInDim S100000x512 (![0, 1] : Fin 2 → Fin S100000x512.rank)
  dot_S100000x512_S512x256_S100000x256_1_0_0_1_n_n_wf : DotDims.WF S100000x512 S512x256 S100000x256 [1] [0] [0] [1] [] []
  dot_S100000x256_S256x1_S100000x1_1_0_0_1_n_n_wf : DotDims.WF S100000x256 S256x1 S100000x1 [1] [0] [0] [1] [] []

variable [Facts₀]

def dot_S100000x512_S512x256_S100000x256_1_0_0_1_n_n : DotDims S100000x512 S512x256 S100000x256 where
  lhsContracting := [1]
  rhsContracting := [0]
  lhsNonContracting := [0]
  rhsNonContracting := [1]
  lhsBatch := []
  rhsBatch := []
  wf := dot_S100000x512_S512x256_S100000x256_1_0_0_1_n_n_wf
def dot_S100000x256_S256x1_S100000x1_1_0_0_1_n_n : DotDims S100000x256 S256x1 S100000x1 where
  lhsContracting := [1]
  rhsContracting := [0]
  lhsNonContracting := [0]
  rhsNonContracting := [1]
  lhsBatch := []
  rhsBatch := []
  wf := dot_S100000x256_S256x1_S100000x1_1_0_0_1_n_n_wf

class Facts : Prop extends Facts₀ where

variable [Facts]
-- ==== Proof.LibERealSum.lean ====
/-
  The coercion of the reals into the extended reals commutes with finite sums.
-/
import Mathlib.Data.EReal.Operations
import Mathlib.Algebra.BigOperators.Group.Finset.Basic

open scoped BigOperators

namespace Cert.Lib

/-- The coercion `ℝ → EReal` of a finite sum of reals is the sum of the coercions: the coercion is additive
    (`EReal.coe_add`) and sends `0` to `0`, so the statement follows by induction on the index set. -/
theorem EReal_coe_finset_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

end Cert.Lib
-- ==== Proof.PairGate.lean ====
/-
  The mathematics of the pair gate, on the extended reals.

  A row `z` of either input is scored by a two-layer perceptron,
  `score z = (Σ_q max (Σ_k z k · W₁ k q + b₁ q) 0 · w₂ q) + b₂`.
  With the two scores `s` (of the row of the first input) and `s'` (of the row of the second) the row of the result is
  `g · z₁ + g' · z₂`, where the weights are written in two ways:
  * as the logistic of the difference, `g = 1 / (1 + e^{0 - (s - s')})` and `g' = 1 - g`;
  * as the two-term softmax, `g = e^s / (e^s + e^{s'})` and `g' = e^{s'} / (e^s + e^{s'})`.
  For REAL scores the two agree (`e^s / (e^s + e^{s'}) = 1 / (1 + e^{s' - s})`, and the two softmax weights add to one);
  at an infinite score they do not, so the equality is stated for scores that are reals, and a score is a real as soon
  as the row, the weights and the biases are (`score_coe`: sums, products and maxima of reals are reals).
-/
import Idealize.ShloMosaic.PureOps.Ideal
import proofs.«169851_j2757369004055_2_alg».proof.Proof.LibERealSum

noncomputable section

namespace Cert.PairGate

open Idealize.ShloMosaic
open scoped BigOperators

variable {K H : ℕ}

/-- The score of one row `z`: a hidden layer `max (z · W₁ + b₁) 0` followed by the inner product with `w₂`, plus `b₂`. -/
def score (z : Fin K → EReal) (W1 : Fin K → Fin H → EReal) (b1 w2 : Fin H → EReal) (b2 : EReal) : EReal :=
  (∑ q : Fin H, max ((∑ k : Fin K, z k * W1 k q) + b1 q) 0 * w2 q) + b2

/-- The same score computed in the reals. -/
def scoreR (z : Fin K → ℝ) (W1 : Fin K → Fin H → ℝ) (b1 w2 : Fin H → ℝ) (b2 : ℝ) : ℝ :=
  (∑ q : Fin H, max ((∑ k : Fin K, z k * W1 k q) + b1 q) 0 * w2 q) + b2

/-- The score of real data is the real score: the coercion commutes with the sums, the products and the maximum. -/
theorem score_coe (z : Fin K → ℝ) (W1 : Fin K → Fin H → ℝ) (b1 w2 : Fin H → ℝ) (b2 : ℝ) :
    score (fun k => (z k : EReal)) (fun k q => (W1 k q : EReal)) (fun q => (b1 q : EReal)) (fun q => (w2 q : EReal)) (b2 : EReal)
      = ((scoreR z W1 b1 w2 b2 : ℝ) : EReal) := by
  unfold score scoreR
  rw [EReal.coe_add, Cert.Lib.EReal_coe_finset_sum]
  congr 1
  refine Finset.sum_congr rfl fun q _ => ?_
  rw [EReal.coe_mul, EReal.coe_strictMono.monotone.map_max, EReal.coe_add, Cert.Lib.EReal_coe_finset_sum, EReal.coe_zero]
  simp only [EReal.coe_mul]

/-- The result's entry with the weights written as the logistic of the scores' difference. -/
def mixLogistic (one zero s s' z1 z2 : EReal) : EReal :=
  Ideal.div one (one + Ideal.exp (zero - (s - s'))) * z1 + (one - Ideal.div one (one + Ideal.exp (zero - (s - s')))) * z2

/-- The result's entry with the weights written as the two-term softmax of the scores. -/
def mixSoftmax (s s' z1 z2 : EReal) : EReal :=
  Ideal.div (Ideal.exp s) (Ideal.exp s + Ideal.exp s') * z1 + Ideal.div (Ideal.exp s') (Ideal.exp s + Ideal.exp s') * z2

/-- In the reals: `e^a / (e^a + e^b) = 1 / (1 + e^{0 - (a - b)})`. -/
theorem real_weight (a b : ℝ) :
    Real.exp a * (1 / (Real.exp a + Real.exp b)) = 1 * (1 / (1 + Real.exp (0 - (a - b)))) := by
  have ha := Real.exp_pos a
  have hb := Real.exp_pos b
  have e : Real.exp (0 - (a - b)) = Real.exp b / Real.exp a := by
    rw [show 0 - (a - b) = b - a by ring, Real.exp_sub]
  rw [e]
  field_simp

/-- In the reals: `e^b / (e^a + e^b) = 1 - 1 / (1 + e^{0 - (a - b)})`: the two softmax weights add to one. -/
theorem real_weight' (a b : ℝ) :
    Real.exp b * (1 / (Real.exp a + Real.exp b)) = 1 - 1 * (1 / (1 + Real.exp (0 - (a - b)))) := by
  have ha := Real.exp_pos a
  have hb := Real.exp_pos b
  have e : Real.exp (0 - (a - b)) = Real.exp b / Real.exp a := by
    rw [show 0 - (a - b) = b - a by ring, Real.exp_sub]
  rw [e]
  field_simp
  ring

/-- For real scores the logistic form and the softmax form of the result's entry are one extended real, whatever the
    two entries `z₁`, `z₂` being mixed. -/
theorem mixLogistic_eq_mixSoftmax (a b : ℝ) (z1 z2 : EReal) :
    mixLogistic 1 0 (a : EReal) (b : EReal) z1 z2 = mixSoftmax (a : EReal) (b : EReal) z1 z2 := by
  have hpos : Real.exp a + Real.exp b ≠ 0 := (add_pos (Real.exp_pos a) (Real.exp_pos b)).ne'
  have hpos' : 1 + Real.exp (0 - (a - b)) ≠ 0 := (add_pos one_pos (Real.exp_pos _)).ne'
  have hl : Ideal.div 1 (1 + Ideal.exp (0 - ((a : EReal) - (b : EReal)))) = ((1 * (1 / (1 + Real.exp (0 - (a - b))))  : ℝ) : EReal) := by
    rw [← EReal.coe_sub, ← EReal.coe_zero, ← EReal.coe_sub, Ideal.exp_coe, ← EReal.coe_one, ← EReal.coe_add,
      Ideal.div_coe hpos', ← EReal.coe_mul]
  have hx : Ideal.div (Ideal.exp (a : EReal)) (Ideal.exp (a : EReal) + Ideal.exp (b : EReal)) = ((Real.exp a * (1 / (Real.exp a + Real.exp b)) : ℝ) : EReal) := by
    rw [Ideal.exp_coe, Ideal.exp_coe, ← EReal.coe_add, Ideal.div_coe hpos, ← EReal.coe_mul]
  have hy : Ideal.div (Ideal.exp (b : EReal)) (Ideal.exp (a : EReal) + Ideal.exp (b : EReal)) = ((Real.exp b * (1 / (Real.exp a + Real.exp b)) : ℝ) : EReal) := by
    rw [Ideal.exp_coe, Ideal.exp_coe, ← EReal.coe_add, Ideal.div_coe hpos, ← EReal.coe_mul]
  unfold mixLogistic mixSoftmax
  rw [hl, hx, hy, real_weight a b, real_weight' a b, EReal.coe_sub, EReal.coe_one]

end Cert.PairGate

end
-- ==== Proof.LibRealEntries.lean ====
/-
  General lemmas: arrays of reals among arrays of extended reals, and how a finiteness precondition yields them.

  A float input read on the extended reals ranges over `[-∞, +∞]`; an algebraic law that fails at the infinities
  (cancelling, distributing, a quotient of exponentials) needs the entries to be reals. A precondition of the form
  `all (|x| < +∞)` says exactly that:
  * `AllReal x`: every entry of `x` is the coercion of a real;
  * `top_word_f32`: the f32 word `0x7F800000` denotes `+∞`;
  * `real_of_abs_lt_top`: an extended real whose absolute value `max x (-x)` compares below that word is a real
    (`|±∞| = +∞` is not below `+∞`);
  * `allReal_of_all_abs_lt`: if the host's reduction by `and`, over all axes into a result of one index, of the
    comparison `|x| < inf` (with `inf` the splat of that word) answers one, then `x` is an array of reals.
-/
import Idealize.ShloMosaic.Lib.ReduceAll
import Idealize.ShloMosaic.PureOps.Ideal.Laws

noncomputable section

namespace Cert.Lib

open Idealize.ShloMosaic

/-- Every entry of an array of extended reals is a real. -/
def AllReal {ι : Type} (x : ι → EReal) : Prop := ∀ i, ∃ r : ℝ, x i = (r : EReal)

/-- The f32 word of `+∞` denotes `⊤`. -/
theorem top_word_f32 : Ideal.ofBits .f32 0x7F800000#32 = ⊤ := by simp [Ideal.ofBits, Ideal.ieee]

/-- An extended real whose absolute value is below `+∞` is a real. -/
theorem real_of_abs_lt_top (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  rw [top_word_f32] at h
  induction x using EReal.rec with
  | bot => exfalso; revert h; simp [Ideal.cmpf_def, Ideal.absf_def, Ideal.cmp]
  | top => exfalso; revert h; simp [Ideal.cmpf_def, Ideal.absf_def, Ideal.cmp]
  | coe r => exact ⟨r, rfl⟩

/-- An array all of whose entries pass `|x| < +∞` — the host's reduction by `and` over every axis, into a result of one
    index, answers one — is an array of reals. -/
theorem allReal_of_all_abs_lt {s t u : Shape} [Subsingleton t.Idx] (x inf : FVec Ideal s .f32)
    (hinf : ∀ i, inf i = Ideal.ofBits .f32 0x7F800000#32) {axes : List (Fin s.rank)} (hr : s.ReducesTo axes t)
    (init : u.Idx → BitVec 1) (hu : 0 < u.numel) (j : t.Idx)
    (e : Host.reduce IntOp.andi (cmpf .olt (Host.absf x) inf) init hr hu j = 1#1) : AllReal x := fun i => by
  have hi := Host.reduce_andi_all _ init hr hu j e i
  exact real_of_abs_lt_top (x i) (by rw [← hinf i]; exact hi)

end Cert.Lib

end
-- ==== Proof.PairGateArray.lean ====
/-
  The pair gate over whole arrays.

  The inputs are two `[100000, 512]` arrays `z₁`, `z₂`, the hidden layer's weights `W₁ : [512, 256]` and bias
  `b₁ : [256]`, the output layer's weights `W₂ : [256, 1]` and bias `b₂ : [1]`. Row `p` of either input is scored by the
  perceptron of `PairGate.score`, with `W₁ k q`, `b₁ q`, `W₂ q 0` and `b₂ 0` read from the arrays, and entry `(p, c)` of the
  result mixes `z₁ (p, c)` and `z₂ (p, c)` with the two weights made of the scores of row `p`: `resultLogistic` writes the
  weights as a logistic of the difference, `resultSoftmax` as a two-term softmax. On arrays of reals the two are the same
  array (`resultLogistic_eq_resultSoftmax`).
-/
import Idealize.ShloMosaic.Lib.ValueIdx
import proofs.«169851_j2757369004055_2_alg».proof.Proof.PairGate
import proofs.«169851_j2757369004055_2_alg».proof.Proof.LibRealEntries

noncomputable section

namespace Cert.PairGate

open Idealize.ShloMosaic Idealize.ShloMosaic.ValueIdx Cert.Lib

/-- The score of a row, the layers' weights and biases read from their arrays. -/
def rowScore (row : Fin 512 → EReal) (W1 : (⟨2, ![512, 256]⟩ : Shape).Idx → EReal) (b1 : (⟨1, ![256]⟩ : Shape).Idx → EReal)
    (W2 : (⟨2, ![256, 1]⟩ : Shape).Idx → EReal) (b2 : (⟨1, ![1]⟩ : Shape).Idx → EReal) : EReal :=
  score row (fun k q => W1 (ix2 k q)) (fun q => b1 (ix1 q)) (fun q => W2 (ix2 q (0 : Fin 1))) (b2 (ix1 (0 : Fin 1)))

/-- The score of a real row under real weights and biases is a real. -/
theorem rowScore_real {row : Fin 512 → EReal} {W1 : (⟨2, ![512, 256]⟩ : Shape).Idx → EReal} {b1 : (⟨1, ![256]⟩ : Shape).Idx → EReal}
    {W2 : (⟨2, ![256, 1]⟩ : Shape).Idx → EReal} {b2 : (⟨1, ![1]⟩ : Shape).Idx → EReal}
    (hrow : AllReal row) (hW1 : AllReal W1) (hb1 : AllReal b1) (hW2 : AllReal W2) (hb2 : AllReal b2) :
    ∃ a : ℝ, rowScore row W1 b1 W2 b2 = (a : EReal) := by
  choose rr hr using hrow
  choose w1 hw1 using hW1
  choose v1 hv1 using hb1
  choose w2 hw2 using hW2
  choose v2 hv2 using hb2
  obtain rfl : row = fun k => ((rr k : ℝ) : EReal) := funext hr
  obtain rfl : W1 = fun i => ((w1 i : ℝ) : EReal) := funext hw1
  obtain rfl : b1 = fun i => ((v1 i : ℝ) : EReal) := funext hv1
  obtain rfl : W2 = fun i => ((w2 i : ℝ) : EReal) := funext hw2
  obtain rfl : b2 = fun i => ((v2 i : ℝ) : EReal) := funext hv2
  exact ⟨_, score_coe rr (fun k q => w1 (ix2 k q)) (fun q => v1 (ix1 q)) (fun q => w2 (ix2 q (0 : Fin 1))) (v2 (ix1 (0 : Fin 1)))⟩

variable (z1 z2 : (⟨2, ![100000, 512]⟩ : Shape).Idx → EReal) (W1 : (⟨2, ![512, 256]⟩ : Shape).Idx → EReal)
  (b1 : (⟨1, ![256]⟩ : Shape).Idx → EReal) (W2 : (⟨2, ![256, 1]⟩ : Shape).Idx → EReal) (b2 : (⟨1, ![1]⟩ : Shape).Idx → EReal)

/-- The result with logistic weights; `one` and `zero` are the two constants the formula spells. -/
def resultLogistic (one zero : EReal) : (⟨2, ![100000, 512]⟩ : Shape).Idx → EReal := fun i =>
  mixLogistic one zero (rowScore (fun k => z1 (ix2 (i 0) k)) W1 b1 W2 b2) (rowScore (fun k => z2 (ix2 (i 0) k)) W1 b1 W2 b2) (z1 i) (z2 i)

/-- The result with softmax weights. -/
def resultSoftmax : (⟨2, ![100000, 512]⟩ : Shape).Idx → EReal := fun i =>
  mixSoftmax (rowScore (fun k => z1 (ix2 (i 0) k)) W1 b1 W2 b2) (rowScore (fun k => z2 (ix2 (i 0) k)) W1 b1 W2 b2) (z1 i) (z2 i)

/-- On arrays of reals both scores of every row are reals, so the two forms of the result are one array. -/
theorem resultLogistic_eq_resultSoftmax (h1 : AllReal z1) (h2 : AllReal z2) (hW1 : AllReal W1) (hb1 : AllReal b1)
    (hW2 : AllReal W2) (hb2 : AllReal b2) :
    resultLogistic z1 z2 W1 b1 W2 b2 1 0 = resultSoftmax z1 z2 W1 b1 W2 b2 := by
  funext i
  obtain ⟨a, ha⟩ := rowScore_real (row := fun k => z1 (ix2 (i 0) k)) (fun k => h1 _) hW1 hb1 hW2 hb2
  obtain ⟨b, hb⟩ := rowScore_real (row := fun k => z2 (ix2 (i 0) k)) (fun k => h2 _) hW1 hb1 hW2 hb2
  unfold resultLogistic resultSoftmax
  rw [ha, hb]
  exact mixLogistic_eq_mixSoftmax a b _ _

end Cert.PairGate

end
-- ==== Proof.FiniteInputs.lean ====
/-
  What the precondition says: every entry of every argument is a real.

  The precondition is the conjunction, over the six float arguments, of `all (|x| < +∞)`. On the extended reals
  `|x| = max x (-x)` is `+∞` exactly at `x = ±∞`, so an entry that passes the comparison is a real number; a reduction by
  `and` over all axes that answers one had a one at every entry; and a conjunction that answers one had a one in both
  conjuncts (the first two facts are the general lemmas of `LibRealEntries`). Hence each argument is an array of reals
  (`reals_of_pre`).
-/
import proofs.«169851_j2757369004055_2_alg».proof.Proof.Gen.Pre_finite_inputs
import proofs.«169851_j2757369004055_2_alg».proof.Proof.PairGateArray
import Idealize.ShloMosaic.Lib.ReduceAll
import Idealize.ShloMosaic.Lib.ValueIdx
import Idealize.ShloMosaic.Lib.Affine
import Idealize.ShloMosaic.PureOps.Ideal.Laws

noncomputable section

namespace Cert.Pre_finite_inputs.Reals

open Cert.Pre_finite_inputs Idealize.ShloMosaic Idealize.ShloMosaic.ValueIdx Cert.PairGate Cert.Lib

/-- The rank-0 shape has one index. -/
instance : Subsingleton S_.Idx := ⟨fun a b => funext fun d => d.elim0⟩

/-- Under the precondition the six arguments are arrays of reals. -/
theorem reals_of_pre (a0 a1 : FVec Ideal S100000x512 .f32) (a2 : FVec Ideal S512x256 .f32) (a3 : FVec Ideal S256 .f32)
    (a4 : FVec Ideal S256x1 .f32) (a5 : FVec Ideal S1 .f32) (h : fn (F := Ideal) a0 a1 a2 a3 a4 a5 = fun _ => 1#1) :
    AllReal a0 ∧ AllReal a1 ∧ AllReal a2 ∧ AllReal a3 ∧ AllReal a4 ∧ AllReal a5 := by
  have h0 := congrFun h ix0
  dsimp only [fn, fn_part1] at h0
  obtain ⟨h1, e5⟩ := IntOp.andi_eq_one.mp h0
  obtain ⟨h2, e4⟩ := IntOp.andi_eq_one.mp h1
  obtain ⟨h3, e3⟩ := IntOp.andi_eq_one.mp h2
  obtain ⟨h4, e2⟩ := IntOp.andi_eq_one.mp h3
  obtain ⟨e0, e1⟩ := IntOp.andi_eq_one.mp h4
  exact ⟨allReal_of_all_abs_lt _ _ (fun _ => rfl) _ _ _ ix0 e0, allReal_of_all_abs_lt _ _ (fun _ => rfl) _ _ _ ix0 e1,
    allReal_of_all_abs_lt _ _ (fun _ => rfl) _ _ _ ix0 e2, allReal_of_all_abs_lt _ _ (fun _ => rfl) _ _ _ ix0 e3,
    allReal_of_all_abs_lt _ _ (fun _ => rfl) _ _ _ ix0 e4, allReal_of_all_abs_lt _ _ (fun _ => rfl) _ _ _ ix0 e5⟩

end Cert.Pre_finite_inputs.Reals

end
-- ==== Proof.RefRows.lean ====
/-
  The reference program's result, index by index.

  The reference scores every row of `z₁` and of `z₂` by the perceptron (a `[100000, 512] × [512, 256]` product, the
  bias, the maximum with zero, a `[100000, 256] × [256, 1]` product, the bias), exponentiates the two score columns,
  divides each exponential by their sum, and mixes the two inputs with the two quotients broadcast along the rows:
  entry `(p, c)` is `PairGate.resultSoftmax` of the six argument arrays.
-/
import proofs.«169851_j2757369004055_2_alg».proof.Proof.Gen.ReferenceIdeal.Read
import proofs.«169851_j2757369004055_2_alg».proof.Proof.PairGateArray

noncomputable section

namespace Cert.ReferenceIdeal.Rows

open Cert.ReferenceIdeal Cert.ReferenceIdeal.Read Idealize.ShloMosaic Idealize.ShloMosaic.ValueIdx Cert.PairGate
open scoped BigOperators

variable (x0 x1 : (⟨S100000x512, .f32⟩ : BufTy).Contents (Elt Ideal)) (x2 : (⟨S512x256, .f32⟩ : BufTy).Contents (Elt Ideal))
  (x3 : (⟨S256, .f32⟩ : BufTy).Contents (Elt Ideal)) (x4 : (⟨S256x1, .f32⟩ : BufTy).Contents (Elt Ideal))
  (x5 : (⟨S1, .f32⟩ : BufTy).Contents (Elt Ideal))

/-- The score column of `z₁`: its entry in row `p` is the perceptron's score of row `p` of `z₁`. -/
theorem score_first (p : Fin 100000) :
    val_main_v8 (F := Ideal) x0 x2 x3 x4 x5 (ix2 p (0 : Fin 1)) = rowScore (fun k => x0 (ix2 p k)) x2 x3 x4 x5 := by
  rw [val_main_v8_apply, val_main_v5_apply, val_main_v7_apply, val_main_v6_apply]
  unfold rowScore score
  simp only [Ideal.addf_def]
  congr 1
  · refine Finset.sum_congr rfl fun q _ => ?_
    rw [val_main_v4_apply, val_main_v3_apply, val_main_v0_apply, val_main_v2_apply, val_main_v1_apply,
      val_main_call0_v0_apply, val_main_call0_cst_apply]
    simp only [Ideal.addf_def, Ideal.maximumf_def, Ideal.ofBits_def, Ideal.ofBits_zero_f32]
    have e1 : ∀ k : Fin 512, lidx_main_v0 (lidx_main_v5 (ix2 p (0 : Fin 1)) q) k = ix2 p k := fun k =>
      funext fun a => by match a with | ⟨0, _⟩ => rfl | ⟨1, _⟩ => rfl
    have e2 : ∀ k : Fin 512, ridx_main_v0 (lidx_main_v5 (ix2 p (0 : Fin 1)) q) k = ix2 k q := fun k =>
      funext fun a => by match a with | ⟨0, _⟩ => rfl | ⟨1, _⟩ => rfl
    have e3 : idx_main_v1 (idx_main_v2 (lidx_main_v5 (ix2 p (0 : Fin 1)) q)) = ix1 q :=
      funext fun a => by match a with | ⟨0, _⟩ => rfl
    have e4 : ridx_main_v5 (ix2 p (0 : Fin 1)) q = ix2 q (0 : Fin 1) :=
      funext fun a => by match a with | ⟨0, _⟩ => rfl | ⟨1, _⟩ => rfl
    simp only [e1, e2, e3, e4]
  · exact congrArg x5 (funext fun a => by match a with | ⟨0, _⟩ => rfl)

/-- The score column of `z₂`, likewise. -/
theorem score_second (p : Fin 100000) :
    val_main_v17 (F := Ideal) x1 x2 x3 x4 x5 (ix2 p (0 : Fin 1)) = rowScore (fun k => x1 (ix2 p k)) x2 x3 x4 x5 := by
  rw [val_main_v17_apply, val_main_v14_apply, val_main_v16_apply, val_main_v15_apply]
  unfold rowScore score
  simp only [Ideal.addf_def]
  congr 1
  · refine Finset.sum_congr rfl fun q _ => ?_
    rw [val_main_v13_apply, val_main_v12_apply, val_main_v9_apply, val_main_v11_apply, val_main_v10_apply,
      val_main_call1_v0_apply, val_main_call1_cst_apply]
    simp only [Ideal.addf_def, Ideal.maximumf_def, Ideal.ofBits_def, Ideal.ofBits_zero_f32]
    have e1 : ∀ k : Fin 512, lidx_main_v9 (lidx_main_v14 (ix2 p (0 : Fin 1)) q) k = ix2 p k := fun k =>
      funext fun a => by match a with | ⟨0, _⟩ => rfl | ⟨1, _⟩ => rfl
    have e2 : ∀ k : Fin 512, ridx_main_v9 (lidx_main_v14 (ix2 p (0 : Fin 1)) q) k = ix2 k q := fun k =>
      funext fun a => by match a with | ⟨0, _⟩ => rfl | ⟨1, _⟩ => rfl
    have e3 : idx_main_v10 (idx_main_v11 (lidx_main_v14 (ix2 p (0 : Fin 1)) q)) = ix1 q :=
      funext fun a => by match a with | ⟨0, _⟩ => rfl
    have e4 : ridx_main_v14 (ix2 p (0 : Fin 1)) q = ix2 q (0 : Fin 1) :=
      funext fun a => by match a with | ⟨0, _⟩ => rfl | ⟨1, _⟩ => rfl
    simp only [e1, e2, e3, e4]
  · exact congrArg x5 (funext fun a => by match a with | ⟨0, _⟩ => rfl)

/-- The reference's result array is the pair gate with softmax weights. -/
theorem result_eq : val_main_v27 (F := Ideal) x0 x1 x2 x3 x4 x5 = resultSoftmax x0 x1 x2 x3 x4 x5 := by
  funext i
  obtain ⟨p, c, rfl⟩ : ∃ (p : Fin 100000) (c : Fin 512), i = ix2 p c := ⟨i 0, i 1, eq_ix2 i⟩
  have e : idx_main_v23 (ix2 p c) = ix2 p (0 : Fin 1) :=
    funext fun a => by match a with | ⟨0, _⟩ => rfl | ⟨1, _⟩ => rfl
  have e' : idx_main_v25 (ix2 p c) = ix2 p (0 : Fin 1) :=
    funext fun a => by match a with | ⟨0, _⟩ => rfl | ⟨1, _⟩ => rfl
  rw [val_main_v27_apply, val_main_v24_apply, val_main_v26_apply, val_main_v23_apply, val_main_v25_apply, e, e',
    val_main_v21_apply, val_main_v22_apply, val_main_v20_apply, val_main_v18_apply, val_main_v19_apply,
    score_first, score_second]
  simp only [Ideal.addf_def, Ideal.mulf_def, Ideal.hostDivf_def, Ideal.hostUnary_exp_def]
  rfl

end Cert.ReferenceIdeal.Rows

end
-- ==== Proof.LibPlainDot.lean ====
/-
  A plain matrix product read at an index.

  The dimension numbers of `[a, K] × [K, b] → [a, b]` — contract the left operand's axis 1 with the right operand's axis 0,
  no batch axis — are those of a kernel's `tpu.matmul` of two matrices and of the host's `dot_general` of two matrices
  alike. On the extended reals either product, read at `(p, q)`, is the sum over `k` of `l (p, k) · r (k, q)` (plus the
  accumulator's entry for the kernel's form); the two lemmas on the operand indices say which entries a contraction
  position reads.
-/
import Idealize.ShloMosaic.PureOps.Ideal.Laws
import Idealize.ShloMosaic.Lib.ValueIdx

noncomputable section

namespace Cert.Lib

open Idealize.ShloMosaic Idealize.ShloMosaic.ValueIdx
open scoped BigOperators

variable {a K b : ℕ}

/-- The dimension numbers of the plain product `[a, K] × [K, b] → [a, b]`, over any witness of their well-formedness. -/
abbrev plainDot (wf : DotDims.WF ⟨2, ![a, K]⟩ ⟨2, ![K, b]⟩ ⟨2, ![a, b]⟩ [1] [0] [0] [1] [] []) :
    DotDims ⟨2, ![a, K]⟩ ⟨2, ![K, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, K]⟩ ⟨2, ![K, b]⟩ ⟨2, ![a, b]⟩ [1] [0] [0] [1] [] [])

/-- Off the contracted axis the left operand is read at the result's row, -/
theorem plainDot_lhs_row (i : (⟨2, ![a, b]⟩ : Shape).Idx) (κ : (plainDot wf).contr.Idx) :
    ((plainDot wf).lhsIdx i κ 0).val = (i 0).val := by
  unfold DotDims.lhsIdx
  rw [dif_neg (show ¬(0 : Fin (Shape.rank ⟨2, ![a, K]⟩)) ∈ (plainDot wf).lhsBatch from List.not_mem_nil),
    dif_pos (show (0 : Fin (Shape.rank ⟨2, ![a, K]⟩)) ∈ (plainDot wf).lhsNonContracting from List.mem_singleton.mpr rfl)]
  rfl

/-- and the right operand at the result's column. -/
theorem plainDot_rhs_col (i : (⟨2, ![a, b]⟩ : Shape).Idx) (κ : (plainDot wf).contr.Idx) :
    ((plainDot wf).rhsIdx i κ 1).val = (i 1).val := by
  unfold DotDims.rhsIdx
  rw [dif_neg (show ¬(1 : Fin (Shape.rank ⟨2, ![K, b]⟩)) ∈ (plainDot wf).rhsBatch from List.not_mem_nil),
    dif_pos (show (1 : Fin (Shape.rank ⟨2, ![K, b]⟩)) ∈ (plainDot wf).rhsNonContracting from List.mem_singleton.mpr rfl)]
  rfl

/-- At result index `(p, q)` and contraction position `k` the left operand is read at `(p, k)`. -/
theorem plainDot_lhsIdx (p : Fin a) (q : Fin b) (k : Fin K) :
    (plainDot wf).lhsIdx (ix2 p q) ((contrEquiv1 (plainDot wf) K rfl rfl).symm k) = ix2 p k :=
  funext fun ax => Fin.ext (by
    match ax with
    | ⟨0, _⟩ => exact plainDot_lhs_row wf _ _
    | ⟨1, _⟩ =>
      exact ((plainDot wf).lhsIdx_val_of_single rfl _ _).trans (contrEquiv1_symm_val (plainDot wf) K rfl rfl k))

/-- … and the right operand at `(k, q)`. -/
theorem plainDot_rhsIdx (p : Fin a) (q : Fin b) (k : Fin K) :
    (plainDot wf).rhsIdx (ix2 p q) ((contrEquiv1 (plainDot wf) K rfl rfl).symm k) = ix2 k q :=
  funext fun ax => Fin.ext (by
    match ax with
    | ⟨0, _⟩ =>
      exact ((plainDot wf).rhsIdx_val_of_single rfl _ _).trans (contrEquiv1_symm_val (plainDot wf) K rfl rfl k)
    | ⟨1, _⟩ => exact plainDot_rhs_col wf _ _)

/-- The contraction of a plain product at `(p, q)`, re-indexed by the contracted coordinate. -/
theorem plainDot_sum {φ₁ φ₂ : FTy} (l : FVec Ideal ⟨2, ![a, K]⟩ φ₁) (r : FVec Ideal ⟨2, ![K, b]⟩ φ₂) (p : Fin a) (q : Fin b) :
    (∑ k : (plainDot wf).contr.Idx, l ((plainDot wf).lhsIdx (ix2 p q) k) * r ((plainDot wf).rhsIdx (ix2 p q) k))
      = ∑ k : Fin K, l (ix2 p k) * r (ix2 k q) := by
  rw [← Equiv.sum_comp (contrEquiv1 (plainDot wf) K rfl rfl).symm]
  refine Finset.sum_congr rfl fun k _ => ?_
  rw [plainDot_lhsIdx, plainDot_rhsIdx]

/-- A `tpu.matmul` of two matrices at `(p, q)`: the accumulator's entry plus the row-by-column sum. -/
theorem matmul_plain_apply {φ₁ φ₂ : FTy} (prec : Option ContractPrecision) (l : FVec Ideal ⟨2, ![a, K]⟩ φ₁)
    (r : FVec Ideal ⟨2, ![K, b]⟩ φ₂) (acc : FVec Ideal ⟨2, ![a, b]⟩ .f32) (p : Fin a) (q : Fin b) :
    FloatOps.matmul (plainDot wf) prec l r acc (ix2 p q) = acc (ix2 p q) + ∑ k : Fin K, l (ix2 p k) * r (ix2 k q) := by
  rw [Ideal.matmul_apply, plainDot_sum]

/-- Into the zero accumulator: the row-by-column sum alone. -/
theorem matmul_plain_zero_apply {φ₁ φ₂ : FTy} (prec : Option ContractPrecision) (l : FVec Ideal ⟨2, ![a, K]⟩ φ₁)
    (r : FVec Ideal ⟨2, ![K, b]⟩ φ₂) (p : Fin a) (q : Fin b) :
    FloatOps.matmul (plainDot wf) prec l r (constant ⟨2, ![a, b]⟩ .f32 0x00000000#32) (ix2 p q)
      = ∑ k : Fin K, l (ix2 p k) * r (ix2 k q) := by
  rw [Ideal.matmul_constant_zero_apply, plainDot_sum]

/-- The host's `dot_general` of two matrices at `(p, q)`: the same sum. -/
theorem dotGeneral_plain_apply {φ₁ φ₂ : FTy} (prec : Option ContractPrecision) (sched : HostSchedule)
    (l : FVec Ideal ⟨2, ![a, K]⟩ φ₁) (r : FVec Ideal ⟨2, ![K, b]⟩ φ₂) (p : Fin a) (q : Fin b) :
    FloatOps.dotGeneral (plainDot wf) prec sched l r (ix2 p q) = ∑ k : Fin K, l (ix2 p k) * r (ix2 k q) := by
  rw [Ideal.dotGeneral_apply, plainDot_sum]

end Cert.Lib

end
-- ==== Proof.LibKeepdims.lean ====
/-
  General lemmas: a sum along the last axis of a matrix that keeps the axis as a unit column, read at an index.

  A `keepdims` row reduction of an `[a, b]` matrix passes through three layout steps: the lane sum into `[a]`, the
  cast of `[a]` to the column `[a, 1]`, and the broadcast of the column `[a, 1]` back over `[a, b]`. Each is read
  here at an index written by its coordinates, so that it applies to a printed operation by unification:
  * `laneSum_ab_apply`: at the ideal values the f32 lane sum at row `p` is `Σ k, v (p, k)`;
  * `shapeCast_a_a1_apply`: the column's entry `(p, 0)` is the vector's entry `p`;
  * `broadcastTo_a1_ab_apply`: the broadcast's entry `(p, c)` is the column's entry `(p, 0)`.
-/
import Idealize.ShloMosaic.Lib.Pipeline.Value
import Idealize.ShloMosaic.Lib.ValueIdx
import Idealize.ShloMosaic.PureOps.Ideal.Laws

noncomputable section

open scoped BigOperators

namespace Idealize.ShloMosaic.ValueIdx

open Idealize.ShloMosaic

variable {α : Type}

/-- An `[a]` array cast to the column `[a, 1]` reads, at `(p, u)`, the operand at `p`, whatever the unit
    coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the ideal values an f32 lane sum of an `[a, b]` matrix (a `vector.multi_reduction <add>` over axis 1 into
    `[a]`, from the sum's neutral word) is, at row `p`, the sum over the row's entries. -/
theorem laneSum_ab_apply {a b : ℕ} (v : FVec Ideal ⟨2, ![a, b]⟩ .f32) (acc : BitVec FTy.f32.bits)
    (h : (⟨2, ![a, b]⟩ : Shape).Reduces [1] ⟨1, ![a]⟩) (hφ : FKind.Formats .f32) (hacc : acc = FKind.add.neutral .f32 hφ)
    (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun ax => Fin.ext (by
      match ax with
      | ⟨0, _⟩ => rfl
      | ⟨1, _⟩ => rfl)))

end Idealize.ShloMosaic.ValueIdx

end
-- ==== Proof.LibLaneMax.lean ====
/-
  General lemmas: a maximum along the last axis of a matrix, and a one-row matrix broadcast over rows, read at an index.

  * `laneMax_ab_apply`: at the ideal values the f32 lane maximum of an `[a, b]` matrix (a
    `vector.multi_reduction <maximumf>` over axis 1 into `[a]`, from the maximum's neutral word) is, at row `p`, the
    fold of `max` from that word's value over the row's entries `v (p, k)`.
  * `broadcastTo_1b_ab_apply`: a one-row matrix `[1, b]` broadcast to `[a, b]` reads, at `(p, q)`, the row's entry `q`.
  * `fold_max_absorb`: the value a fold of `max` starts from is below the fold, so taking `max` with it again changes
    nothing.
-/
import Idealize.ShloMosaic.Lib.Pipeline.Value
import Idealize.ShloMosaic.Lib.ValueIdx
import Idealize.ShloMosaic.PureOps.Ideal.Laws

noncomputable section

namespace Idealize.ShloMosaic.ValueIdx

open Idealize.ShloMosaic

/-- A one-row matrix broadcast over `a` rows reads, at (p, q), the row's entry q. -/
theorem broadcastTo_1b_ab_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- At the ideal values an f32 lane maximum of an `[a, b]` matrix is, at row `p`, the fold of `max` over the row's
    entries from the accumulator word's value. -/
theorem laneMax_ab_apply {a b : ℕ} (v : FVec Ideal ⟨2, ![a, b]⟩ .f32) (acc : BitVec FTy.f32.bits)
    (h : (⟨2, ![a, b]⟩ : Shape).Reduces [1] ⟨1, ![a]⟩) (hφ : FKind.Formats .f32) (hacc : acc = FKind.maximumf.neutral .f32 hφ)
    (p : Fin a) :
    multiReduction .maximumf [1] ⟨1, ![a]⟩ v acc h hφ hacc (ix1 p)
      = (Finset.univ : Finset (Fin b)).fold max (Ideal.ofBits .f32 acc) (fun k => v (ix2 p k)) :=
  (Ideal.multiReduction_maximumf_single v acc h hφ hacc (ix1 p)).trans
    (congrArg (fun f => (Finset.univ : Finset (Fin b)).fold max (Ideal.ofBits .f32 acc) f)
      (funext fun k => congrArg v (funext fun ax => Fin.ext (by
        match ax with
        | ⟨0, _⟩ => rfl
        | ⟨1, _⟩ => rfl))))

/-- A fold of `max` absorbs the value it starts from. -/
theorem fold_max_absorb {ι : Type} (s : Finset ι) (b : EReal) (f : ι → EReal) :
    max b (s.fold max b f) = s.fold max b f :=
  max_eq_right (Finset.le_fold_max b |>.mpr (Or.inl le_rfl))

end Idealize.ShloMosaic.ValueIdx

end
-- ==== Proof.BlockRows.lean ====
/-
  The kernel's block of the result, index by index.

  At one grid point the body holds a `[1000, 512]` block of each input (`x`, `x'` below), the whole `W₁`, and the
  two biases and `W₂` as one-row matrices `[1, 256]`, `[1, 256]`, `[1, 1]`. It scores every row of either block: the
  `[1000, 512] × [512, 256]` product into the zero accumulator, the bias row broadcast over the rows, the maximum with
  zero, the product with the `W₂` row broadcast over the rows summed along the lanes, and the bias; it takes
  `e^{0 - (s - s')}` of the two score columns, and mixes the blocks with `1 / (1 + e^{…})` and one minus it, broadcast
  along the rows. So entry `(r, c)` of the block it leaves is `PairGate.mixLogistic` of the scores of row `r` of the two
  blocks (`block_apply`).
-/
import proofs.«169851_j2757369004055_2_alg».proof.Proof.Gen.KernelIdeal.Value
import proofs.«169851_j2757369004055_2_alg».proof.Proof.PairGateArray
import proofs.«169851_j2757369004055_2_alg».proof.Proof.LibPlainDot
import proofs.«169851_j2757369004055_2_alg».proof.Proof.LibKeepdims
import proofs.«169851_j2757369004055_2_alg».proof.Proof.LibLaneMax
import Idealize.ShloMosaic.Lib.Pipeline.Value
import Idealize.ShloMosaic.Lib.ValueIdx
import Idealize.ShloMosaic.PureOps.Ideal.Laws

noncomputable section

namespace Cert.KernelIdeal.Rows

open Cert.KernelIdeal Cert.KernelIdeal.Gen Idealize.ShloMosaic Idealize.ShloMosaic.ValueIdx Cert.PairGate Cert.Lib
open scoped BigOperators

variable (P0 : FVec Ideal S512x256 .f32) (P1 P2 : FVec Ideal S1x256 .f32) (P3 : FVec Ideal S1x1 .f32)

/-- The hidden layer of a block `x` at `(r, q)`: row `r` of `x` against column `q` of `W₁`, plus the bias, cut at zero. -/
theorem hidden_apply (x : FVec Ideal S1000x512 .f32) (r : Fin 1000) (q : Fin 256) :
    (maximumf (F := Ideal) (addf (matmul (F := Ideal) dot_S1000x512_S512x256_S1000x256_1_0_0_1_n_n none (truncf .bf16 x bitsLt_bf16_f32) (truncf .bf16 P0 bitsLt_bf16_f32) (constant S1000x256 .f32 0x00000000#32)) (broadcastTo S1000x256 (shapeCast S1x256 P1 shapeCasts_S1x256_S1x256) broadcasts_S1x256_S1000x256)) (broadcast S1000x256 (Scalar.ofBits (F := Ideal) .f32 0x00000000#32))) (ix2 r q)
      = max ((∑ k : Fin 512, x (ix2 r k) * P0 (ix2 k q)) + P1 (ix2 (0 : Fin 1) q)) 0 := by
  show max (FloatOps.matmul (F := Ideal) dot_S1000x512_S512x256_S1000x256_1_0_0_1_n_n none (truncf .bf16 x bitsLt_bf16_f32) (truncf .bf16 P0 bitsLt_bf16_f32) (constant S1000x256 .f32 0x00000000#32) (ix2 r q) + broadcastTo S1000x256 (shapeCast S1x256 P1 shapeCasts_S1x256_S1x256) broadcasts_S1x256_S1000x256 (ix2 r q)) (Ideal.ofBits .f32 0x00000000#32) = _
  rw [Ideal.ofBits_zero_f32, shapeCast_self, broadcastTo_1b_ab_apply]
  refine congrArg (fun s => max (s + P1 (ix2 (0 : Fin 1) q)) 0) ?_
  exact matmul_plain_zero_apply (a := 1000) (K := 512) (b := 256) dot_S1000x512_S512x256_S1000x256_1_0_0_1_n_n_wf none (truncf .bf16 x bitsLt_bf16_f32) (truncf .bf16 P0 bitsLt_bf16_f32) r q

/-- The one-entry matrix `[1, 1]` broadcast to a column `[1000, 1]` reads its entry everywhere. -/
theorem bias_column_apply (v : FVec Ideal S1x1 .f32) (r : Fin 1000) (u : Fin 1) :
    broadcastTo S1000x1 v broadcasts_S1x1_S1000x1 (ix2 r u) = v (ix2 (0 : Fin 1) (0 : Fin 1)) := by
  refine broadcastTo_apply v broadcasts_S1x1_S1000x1 (ix2 r u) (ix2 (0 : Fin 1) (0 : Fin 1)) fun ax => ?_
  match ax with
  | ⟨0, _⟩ => rfl
  | ⟨1, _⟩ => rfl

/-- The output layer over a hidden block `h`: the lane sum of `h` times the `W₂` row, kept as a column, plus the bias. -/
theorem output_apply (h : FVec Ideal S1000x256 .f32) (r : Fin 1000) (u : Fin 1) :
    (addf (F := Ideal) (shapeCast S1000x1 (multiReduction (F := Ideal) .add [1] S1000 (mulf h (broadcastTo S1000x256 (shapeCast S1x256 P2 shapeCasts_S1x256_S1x256) broadcasts_S1x256_S1000x256)) 0x00000000#32 reduces_S1000x256_S1000 (.inl rfl) rfl) shapeCasts_S1000_S1000x1) (broadcastTo S1000x1 (shapeCast S1x1 P3 shapeCasts_S1x1_S1x1) broadcasts_S1x1_S1000x1)) (ix2 r u)
      = (∑ q : Fin 256, h (ix2 r q) * P2 (ix2 (0 : Fin 1) q)) + P3 (ix2 (0 : Fin 1) (0 : Fin 1)) := by
  show shapeCast S1000x1 (multiReduction (F := Ideal) .add [1] S1000 (mulf h (broadcastTo S1000x256 (shapeCast S1x256 P2 shapeCasts_S1x256_S1x256) broadcasts_S1x256_S1000x256)) 0x00000000#32 reduces_S1000x256_S1000 (.inl rfl) rfl) shapeCasts_S1000_S1000x1 (ix2 r u) + broadcastTo S1000x1 (shapeCast S1x1 P3 shapeCasts_S1x1_S1x1) broadcasts_S1x1_S1000x1 (ix2 r u) = _
  rw [shapeCast_self, shapeCast_self, bias_column_apply, shapeCast_a_a1_apply]
  refine congrArg (· + P3 (ix2 (0 : Fin 1) (0 : Fin 1))) ?_
  refine (laneSum_ab_apply (a := 1000) (b := 256) _ 0x00000000#32 reduces_S1000x256_S1000 (.inl rfl) rfl r).trans ?_
  refine Finset.sum_congr rfl fun q _ => ?_
  show h (ix2 r q) * broadcastTo S1000x256 P2 broadcasts_S1x256_S1000x256 (ix2 r q) = _
  rw [broadcastTo_1b_ab_apply]

/-- The score of row `r` of a block `x`, as the body computes it. -/
abbrev blockScore (x : FVec Ideal S1000x512 .f32) (r : Fin 1000) : EReal :=
  score (fun k => x (ix2 r k)) (fun k q => P0 (ix2 k q)) (fun q => P1 (ix2 (0 : Fin 1) q)) (fun q => P2 (ix2 (0 : Fin 1) q))
    (P3 (ix2 (0 : Fin 1) (0 : Fin 1)))

variable (P4 P5 : FVec Ideal S1000x512 .f32)

/-- The exponential column: `e^{0 - (s - s')}` of the two blocks' scores of row `r`. -/
theorem exp_column_apply (r : Fin 1000) (u : Fin 1) :
    k0_pay2 (F := Ideal) P0 P1 P2 P3 P4 P5 (ix2 r u)
      = Ideal.exp (Ideal.ofBits .f32 0x00000000#32 - (blockScore P0 P1 P2 P3 P4 r - blockScore P0 P1 P2 P3 P5 r)) := by
  unfold k0_pay2
  refine congrArg (fun d => Ideal.exp (Ideal.ofBits .f32 0x00000000#32 - d)) ?_
  refine congrArg₂ (· - ·) ?_ ?_
  · refine (output_apply P2 P3 _ r u).trans ?_
    unfold blockScore score
    exact congrArg (· + P3 (ix2 (0 : Fin 1) (0 : Fin 1))) (Finset.sum_congr rfl fun q _ => by rw [hidden_apply])
  · refine (output_apply P2 P3 _ r u).trans ?_
    unfold blockScore score
    exact congrArg (· + P3 (ix2 (0 : Fin 1) (0 : Fin 1))) (Finset.sum_congr rfl fun q _ => by rw [hidden_apply])

/-- Entry `(r, c)` of the block the body leaves: the two blocks' entries mixed with the logistic weights of the scores
    of row `r`. -/
theorem block_apply (r : Fin 1000) (c : Fin 512) :
    Cert.KernelIdeal.Value.E6 (F := Ideal) P0 P1 P2 P3 P4 P5 (ix2 r c)
      = mixLogistic (Ideal.ofBits .f32 0x3F800000#32) (Ideal.ofBits .f32 0x00000000#32)
          (blockScore P0 P1 P2 P3 P4 r) (blockScore P0 P1 P2 P3 P5 r) (P4 (ix2 r c)) (P5 (ix2 r c)) := by
  have e0 : Cert.KernelIdeal.Value.ix6_0 (ix2 r c) = ix2 r (0 : Fin 1) := funext fun a => by match a with | ⟨0, _⟩ => rfl | ⟨1, _⟩ => rfl
  have e2 : Cert.KernelIdeal.Value.ix6_2 (ix2 r c) = ix2 r c := funext fun a => by match a with | ⟨0, _⟩ => rfl | ⟨1, _⟩ => rfl
  show (FloatOps.divf (Ideal.ofBits .f32 0x3F800000#32) (k0_pay3 (F := Ideal) (Cert.KernelIdeal.Value.ix6_0 (ix2 r c)) + k0_pay2 (F := Ideal) P0 P1 P2 P3 P4 P5 (Cert.KernelIdeal.Value.ix6_0 (ix2 r c)))) * P4 (Cert.KernelIdeal.Value.ix6_2 (ix2 r c))
      + (Ideal.ofBits .f32 0x3F800000#32 - FloatOps.divf (Ideal.ofBits .f32 0x3F800000#32) (k0_pay3 (F := Ideal) (Cert.KernelIdeal.Value.ix6_0 (ix2 r c)) + k0_pay2 (F := Ideal) P0 P1 P2 P3 P4 P5 (Cert.KernelIdeal.Value.ix6_0 (ix2 r c)))) * P5 (Cert.KernelIdeal.Value.ix6_2 (ix2 r c)) = _
  rw [e0, e2, exp_column_apply]
  rfl

end Cert.KernelIdeal.Rows

end
-- ==== Proof.KernelArray.lean ====
/-
  The kernel's result array.

  The grid has 100 points; point `t` holds rows `1000 t … 1000 t + 999` of `z₁`, of `z₂` and of the result, and at
  every point the whole `W₁` and the three one-row matrices that the host made of `b₁`, `W₂` and `b₂` before the call
  (`b₁ : [256]` as `[1, 256]`, `W₂ : [256, 1]` as `[1, 256]`, `b₂ : [1]` as `[1, 1]`: the same entries in row-major
  order). So the score the body computes of row `r` of a block is the perceptron's score of row `1000 t + r` of the
  input, what point `t` writes back is block `t` of `PairGate.resultLogistic` of the six argument arrays, the 100 blocks
  cover the array, and after the run the result array is that function.
-/
import proofs.«169851_j2757369004055_2_alg».proof.Proof.Gen.KernelIdeal.Value
import proofs.«169851_j2757369004055_2_alg».proof.Proof.PairGateArray
import proofs.«169851_j2757369004055_2_alg».proof.Proof.BlockRows
import Idealize.ShloMosaic.Lib.Pipeline.Value
import Idealize.ShloMosaic.Lib.ValueIdx
import Idealize.ShloMosaic.Lib.StableHlo.Run
import Idealize.ShloMosaic.Lib.Tactic

noncomputable section

namespace Cert.KernelIdeal.Arr

open Cert.KernelIdeal Cert.KernelIdeal.Gen Cert.KernelIdeal.Value Idealize.ShloMosaic Idealize.ShloMosaic.TcCoe Idealize.SL.Sem
open Idealize.ShloMosaic.ValueIdx Cert.PairGate
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The constant `1.0` the body divides and subtracts from, and the `0.0` it negates by. -/
abbrev one : EReal := Ideal.ofBits .f32 0x3F800000#32
abbrev zero : EReal := Ideal.ofBits .f32 0x00000000#32

/-- The kernel's result as one function of the argument arrays: the pair gate with logistic weights. -/
abbrev gate (c : Dev nD) : S100000x512.Idx → EReal :=
  resultLogistic (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) one zero

/-! ## What the body leaves, over arbitrary blocks -/

/-- Entry `(r, k)` of the block the body leaves in the output's buffer, from the six blocks it loads. -/
theorem out_apply (x0 x1 : FVec Ideal S1000x512 .f32) (x2 : FVec Ideal S512x256 .f32) (x3 x4 : FVec Ideal S1x256 .f32)
    (x5 : FVec Ideal S1x1 .f32) (r : Fin 1000) (k : Fin 512) :
    out0_6 (F := Ideal) x0 x1 x2 x3 x4 x5 (ix2 r k)
      = mixLogistic one zero (Rows.blockScore x2 x3 x4 x5 x0 r) (Rows.blockScore x2 x3 x4 x5 x1 r) (x0 (ix2 r k)) (x1 (ix2 r k)) := by
  unfold out0_6
  simp only [View.ld_unit_zero (S := S1000x512) hz, View.ld_unit_zero (S := S512x256) hz, View.ld_unit_zero (S := S1x256) hz,
    View.ld_unit_zero (S := S1x1) hz]
  rw [canon6_eq]
  exact Rows.block_apply x2 x3 x4 x5 x0 x1 r k

/-! ## The blocks at a grid point -/

/-- The printed index maps over the grid: the two inputs move with the output, block row `t` at point `t`, and
    every other window stays on its one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Entry `(r, k)` of the output's block at point `t` is entry `(1000 t + r, k)` of the array. -/
theorem emb_out (t : Fin cfg0.N) (r : Fin 1000) (k : Fin 512) (R : Fin 100000) (hR : R.val = t.val * 1000 + r.val) :
    ((cfg0.win 6).blk t).view.emb (ix2 r k) = (ix2 R k : S100000x512.Idx) := by
  obtain ⟨-, -, -, -, -, -, -, -, -, -, -, -, e0, e1⟩ := idx_facts t
  funext a
  apply Fin.ext
  match a with
  | ⟨0, _⟩ => show win0_6.index t (0 : Fin 2) * 1000 + 1 * r.val = R.val; omega
  | ⟨1, _⟩ => show win0_6.index t (1 : Fin 2) * 512 + 1 * k.val = k.val; omega

/-- The first input's block at point `t` is rows `1000 t …` of `z₁`. -/
theorem first_block (c : Dev nD) (t : Fin cfg0.N) (r : Fin 1000) (k : Fin 512) (R : Fin 100000) (hR : R.val = t.val * 1000 + r.val) :
    (iblk m c 0 t : FVec Ideal S1000x512 .f32) (ix2 r k) = (m ((c : Thread nD τ).loc main_arg0) : S100000x512.Idx → EReal) (ix2 R k) := by
  obtain ⟨e0, e1, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 1000 + 1 * r.val = R.val; omega
  | ⟨1, _⟩ => show win0_0.index t (1 : Fin 2) * 512 + 1 * k.val = k.val; omega

/-- The second input's block at point `t` is rows `1000 t …` of `z₂`. -/
theorem second_block (c : Dev nD) (t : Fin cfg0.N) (r : Fin 1000) (k : Fin 512) (R : Fin 100000) (hR : R.val = t.val * 1000 + r.val) :
    (iblk m c 1 t : FVec Ideal S1000x512 .f32) (ix2 r k) = (m ((c : Thread nD τ).loc main_arg1) : S100000x512.Idx → EReal) (ix2 R k) := by
  obtain ⟨-, -, e0, e1, -⟩ := idx_facts t
  unfold iblk
  rw [View.read_apply]
  show V m c main_arg1 _ = _
  rw [V_main_arg1]
  refine congrArg _ (funext fun a => Fin.ext ?_)
  match a with
  | ⟨0, _⟩ => show win0_1.index t (0 : Fin 2) * 1000 + 1 * r.val = R.val; omega
  | ⟨1, _⟩ => show win0_1.index t (1 : Fin 2) * 512 + 1 * k.val = k.val; omega

/-- The hidden layer's weights at every point are the whole `W₁`. -/
theorem weights_block (c : Dev nD) (t : Fin cfg0.N) (k : Fin 512) (q : Fin 256) :
    (iblk m c 2 t : FVec Ideal S512x256 .f32) (ix2 k q) = (m ((c : Thread nD τ).loc main_arg2) : S512x256.Idx → EReal) (ix2 k q) := by
  obtain ⟨-, -, -, -, e0, e1, -⟩ := idx_facts t
  unfold iblk
  rw [View.read_apply]
  show V m c main_arg2 _ = _
  rw [V_main_arg2]
  refine congrArg _ (funext fun a => Fin.ext ?_)
  match a with
  | ⟨0, _⟩ => show win0_2.index t (0 : Fin 2) * 512 + 1 * k.val = k.val; omega
  | ⟨1, _⟩ => show win0_2.index t (1 : Fin 2) * 256 + 1 * q.val = q.val; omega

/-- The one-row matrix the host made of `b₁` before the call. -/
theorem V_bias1 (c : Dev nD) : (V m c main_v0 : S1x256.Idx → EReal)
    = shapeCast S1x256 (m ((c : Thread nD τ).loc main_arg3) : S256.Idx → EReal) shapeCasts_S256_S1x256 := by
  dsimp only [V, hostOps0]; after_results; rfl

/-- The one-entry matrix the host made of `b₂`. -/
theorem V_bias2 (c : Dev nD) : (V m c main_v1 : S1x1.Idx → EReal)
    = shapeCast S1x1 (m ((c : Thread nD τ).loc main_arg5) : S1.Idx → EReal) shapeCasts_S1_S1x1 := by
  dsimp only [V, hostOps0]; after_results; rfl

/-- The one-row matrix the host made of `W₂`. -/
theorem V_out_weights (c : Dev nD) : (V m c main_v2 : S1x256.Idx → EReal)
    = shapeCast S1x256 (m ((c : Thread nD τ).loc main_arg4) : S256x1.Idx → EReal) shapeCasts_S256x1_S1x256 := by
  dsimp only [V, hostOps0]; after_results; rfl

/-- The bias row's entry `q` at every point is `b₁ q`. -/
theorem bias1_block (c : Dev nD) (t : Fin cfg0.N) (q : Fin 256) :
    (iblk m c 3 t : FVec Ideal S1x256 .f32) (ix2 (0 : Fin 1) q) = (m ((c : Thread nD τ).loc main_arg3) : S256.Idx → EReal) (ix1 q) := by
  obtain ⟨-, -, -, -, -, -, e0, e1, -⟩ := idx_facts t
  unfold iblk
  rw [View.read_apply]
  show V m c main_v0 _ = _
  rw [V_bias1]
  refine shapeCast_apply _ _ _ _ ?_
  show (S256.rowMajor (ix1 q)).val = (S1x256.rowMajor (((cfg0.win 3).blk t).view.emb (ix2 (0 : Fin 1) q))).val
  rw [Shape.rowMajor_val_one, Shape.rowMajor_val_two]
  show q.val = (win0_3.index t (0 : Fin 2) * 1 + 1 * 0) * 256 + (win0_3.index t (1 : Fin 2) * 256 + 1 * q.val)
  omega

/-- The `W₂` row's entry `q` at every point is `W₂ (q, 0)`. -/
theorem out_weights_block (c : Dev nD) (t : Fin cfg0.N) (q : Fin 256) :
    (iblk m c 4 t : FVec Ideal S1x256 .f32) (ix2 (0 : Fin 1) q) = (m ((c : Thread nD τ).loc main_arg4) : S256x1.Idx → EReal) (ix2 q (0 : Fin 1)) := by
  obtain ⟨-, -, -, -, -, -, -, -, e0, e1, -⟩ := idx_facts t
  unfold iblk
  rw [View.read_apply]
  show V m c main_v2 _ = _
  rw [V_out_weights]
  refine shapeCast_apply _ _ _ _ ?_
  show (S256x1.rowMajor (ix2 q (0 : Fin 1))).val = (S1x256.rowMajor (((cfg0.win 4).blk t).view.emb (ix2 (0 : Fin 1) q))).val
  rw [Shape.rowMajor_val_two, Shape.rowMajor_val_two]
  show q.val * 1 + 0 = (win0_4.index t (0 : Fin 2) * 1 + 1 * 0) * 256 + (win0_4.index t (1 : Fin 2) * 256 + 1 * q.val)
  omega

/-- The one-entry matrix's entry at every point is `b₂ 0`. -/
theorem bias2_block (c : Dev nD) (t : Fin cfg0.N) :
    (iblk m c 5 t : FVec Ideal S1x1 .f32) (ix2 (0 : Fin 1) (0 : Fin 1)) = (m ((c : Thread nD τ).loc main_arg5) : S1.Idx → EReal) (ix1 (0 : Fin 1)) := by
  obtain ⟨-, -, -, -, -, -, -, -, -, -, e0, e1, -⟩ := idx_facts t
  unfold iblk
  rw [View.read_apply]
  show V m c main_v1 _ = _
  rw [V_bias2]
  refine shapeCast_apply _ _ _ _ ?_
  show (S1.rowMajor (ix1 (0 : Fin 1))).val = (S1x1.rowMajor (((cfg0.win 5).blk t).view.emb (ix2 (0 : Fin 1) (0 : Fin 1)))).val
  rw [Shape.rowMajor_val_one, Shape.rowMajor_val_two]
  show 0 = (win0_5.index t (0 : Fin 2) * 1 + 1 * 0) * 1 + (win0_5.index t (1 : Fin 2) * 1 + 1 * 0)
  omega

/-! ## The scores at a grid point -/

/-- The body's score of row `r` of the first block at point `t` is the perceptron's score of row `1000 t + r` of `z₁`. -/
theorem first_score (c : Dev nD) (t : Fin cfg0.N) (r : Fin 1000) (R : Fin 100000) (hR : R.val = t.val * 1000 + r.val) :
    Rows.blockScore (iblk m c 2 t) (iblk m c 3 t) (iblk m c 4 t) (iblk m c 5 t) (iblk m c 0 t) r
      = rowScore (fun k => (m ((c : Thread nD τ).loc main_arg0) : S100000x512.Idx → EReal) (ix2 R k))
          (m ((c : Thread nD τ).loc main_arg2)) (m ((c : Thread nD τ).loc main_arg3)) (m ((c : Thread nD τ).loc main_arg4))
          (m ((c : Thread nD τ).loc main_arg5)) := by
  unfold Rows.blockScore rowScore
  refine congr (congr (congr (congr (congrArg score ?_) ?_) ?_) ?_) ?_
  · exact funext fun k => first_block m c t r k R hR
  · exact funext fun k => funext fun q => weights_block m c t k q
  · exact funext fun q => bias1_block m c t q
  · exact funext fun q => out_weights_block m c t q
  · exact bias2_block m c t

/-- The body's score of row `r` of the second block at point `t` is the perceptron's score of row `1000 t + r` of `z₂`. -/
theorem second_score (c : Dev nD) (t : Fin cfg0.N) (r : Fin 1000) (R : Fin 100000) (hR : R.val = t.val * 1000 + r.val) :
    Rows.blockScore (iblk m c 2 t) (iblk m c 3 t) (iblk m c 4 t) (iblk m c 5 t) (iblk m c 1 t) r
      = rowScore (fun k => (m ((c : Thread nD τ).loc main_arg1) : S100000x512.Idx → EReal) (ix2 R k))
          (m ((c : Thread nD τ).loc main_arg2)) (m ((c : Thread nD τ).loc main_arg3)) (m ((c : Thread nD τ).loc main_arg4))
          (m ((c : Thread nD τ).loc main_arg5)) := by
  unfold Rows.blockScore rowScore
  refine congr (congr (congr (congr (congrArg score ?_) ?_) ?_) ?_) ?_
  · exact funext fun k => second_block m c t r k R hR
  · exact funext fun k => funext fun q => weights_block m c t k q
  · exact funext fun q => bias1_block m c t q
  · exact funext fun q => out_weights_block m c t q
  · exact bias2_block m c t

/-! ## What a point writes back, the cover, the array -/

/-- Entry `y` of what the body leaves at point `t` is the gate at the array index under it. -/
theorem flushed_at (c : Dev nD) (t : Fin cfg0.N) (y : S1000x512.Idx) :
    out0_6 (F := Ideal) (iblk m c 0 t) (iblk m c 1 t) (iblk m c 2 t) (iblk m c 3 t) (iblk m c 4 t) (iblk m c 5 t) y
      = gate m c (((cfg0.win 6).blk t).view.emb y) := by
  obtain ⟨r, k, rfl⟩ : ∃ (r : Fin 1000) (k : Fin 512), y = ix2 r k := ⟨y 0, y 1, eq_ix2 y⟩
  have ht : t.val < 100 := lt_of_lt_of_eq t.isLt N_0
  have hlt : t.val * 1000 + r.val < 100000 := by have := r.isLt; omega
  rw [emb_out t r k ⟨t.val * 1000 + r.val, hlt⟩ rfl]
  refine (out_apply _ _ _ _ _ _ r k).trans ?_
  rw [first_score m c t r ⟨t.val * 1000 + r.val, hlt⟩ rfl, second_score m c t r ⟨t.val * 1000 + r.val, hlt⟩ rfl,
    first_block m c t r k ⟨t.val * 1000 + r.val, hlt⟩ rfl, second_block m c t r k ⟨t.val * 1000 + r.val, hlt⟩ rfl]
  rfl

/-- WHAT POINT `t` WRITES BACK is block `t` of the gate of the argument arrays. -/
theorem flushed_eq (c : Dev nD) (t : Fin cfg0.N) :
    (dats m 0 c).flushed 6 t = ((cfg0.win 6).blk t).view.read (Elt Ideal) (gate m c) := by
  rw [flushed6]
  funext y
  exact flushed_at m c t y

/-- An index of the array is in point `t`'s block iff each coordinate is in the block's range on its axis. -/
theorem mem_blk (t : Fin cfg0.N) (i : S100000x512.Idx) :
    i ∈ ((cfg0.win 6).blk t).view.set ↔ ∀ a : Fin 2, win0_6.index t a * S1000x512.size a ≤ (i a).val ∧ (i a).val < win0_6.index t a * S1000x512.size a + S1000x512.size a := by
  show i ∈ ((View.whole main_v3).slice (win0_6.rect t)).set ↔ _
  rw [View.set_slice_whole, Rect.mem_set_unit]
  exact Iff.rfl

/-- Row `p` of the array lies in the block of point `p / 1000`: the 100 blocks cover the array. -/
theorem cover (i : S100000x512.Idx) : ∃ t : Fin cfg0.N, (cfg0.win 6).flush t = true ∧ i ∈ ((cfg0.win 6).blk t).view.set := by
  have hi0 : (i 0).val < 100000 := (i 0).isLt
  have hi1 : (i 1).val < 512 := (i 1).isLt
  have hN : cfg0.N = 100 := N_0
  have hlt : (i 0).val / 1000 < cfg0.N := by rw [hN]; omega
  obtain ⟨-, -, -, -, -, -, -, -, -, -, -, -, e0, e1⟩ := idx_facts ⟨(i 0).val / 1000, hlt⟩
  refine ⟨⟨(i 0).val / 1000, hlt⟩, flush0_6 _, ?_⟩
  rw [mem_blk]
  intro a
  match a with
  | ⟨0, _⟩ =>
    show win0_6.index ⟨(i 0).val / 1000, hlt⟩ (0 : Fin 2) * 1000 ≤ (i 0).val ∧ (i 0).val < win0_6.index ⟨(i 0).val / 1000, hlt⟩ (0 : Fin 2) * 1000 + 1000
    rw [e0]
    show (i 0).val / 1000 * 1000 ≤ (i 0).val ∧ (i 0).val < (i 0).val / 1000 * 1000 + 1000
    omega
  | ⟨1, _⟩ =>
    show win0_6.index ⟨(i 0).val / 1000, hlt⟩ (1 : Fin 2) * 512 ≤ (i 1).val ∧ (i 1).val < win0_6.index ⟨(i 0).val / 1000, hlt⟩ (1 : Fin 2) * 512 + 512
    rw [e1]
    omega

/-- THE ARRAY after the run is the gate of the argument arrays. -/
theorem final (c : Dev nD) : (dats m 0 c).arrAt 6 cfg0.N = gate m c :=
  (dats m 0 c).arrAt_eq_of_cover 6 (gate m c) (fun t _ => flushed_eq m c t) cover

/-- The kernel's run, read: the result array at the gate of the arguments, the arguments unchanged. -/
theorem run : θ_run defs (onTc (τ := τ) (main (F := Ideal))) ⟨m, fun _ => 0, ρ⟩ fun r => ∀ c : Dev nD,
      r.2.mem ((c : Thread nD τ).loc main_v3) = gate m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.KernelIdeal.Arr

end
-- ==== Proof.lean ====
/-
  A pair gate: two `[100000, 512]` inputs `z₁`, `z₂` are mixed row by row, `out = g · z₁ + g' · z₂`, with weights made of
  the scores `s`, `s'` that a shared two-layer perceptron (`[512] → [256] → [1]`, a maximum with zero in between) gives
  row `p` of `z₁` and row `p` of `z₂`.

  The kernel works on blocks of 1000 rows, computes the second layer as a lane sum against `W₂` laid out as a row, and
  takes `g = 1 / (1 + e^{0 - (s - s')})`, `g' = 1 - g`. The reference takes `g = e^s / (e^s + e^{s'})` and
  `g' = e^{s'} / (e^s + e^{s'})`. On the extended reals the two scorers are the same sums of the same products, and for
  REAL scores `e^s / (e^s + e^{s'}) = 1 / (1 + e^{s' - s})` and the two softmax weights add to one; the scores are reals
  because the precondition makes every entry of every argument a real. (At an infinite score the two forms differ, which
  is why the precondition is used.)

  The pieces: `PairGate` (the scorer, the two forms of the weights and their equality for real scores), `PairGateArray`
  (the same over whole arrays), `FiniteInputs` (the precondition gives arrays of reals), `RefRows` (the reference's
  result is the softmax form), `BlockRows` and `KernelArray` (the kernel's result is the logistic form: entry by
  entry of a block, then block by block of the array). The kernel's three frames are the generated ones; the
  idealization rewrote nothing, so there is nothing to preserve.
-/
import proofs.«169851_j2757369004055_2_alg».proof.Defs
import proofs.«169851_j2757369004055_2_alg».proof.Proof.Gen.Kernel
import proofs.«169851_j2757369004055_2_alg».proof.Proof.Gen.Kernel.Skeleton
import proofs.«169851_j2757369004055_2_alg».proof.Proof.Gen.Kernel.Launch
import proofs.«169851_j2757369004055_2_alg».proof.Proof.Gen.Kernel.Points
import proofs.«169851_j2757369004055_2_alg».proof.Proof.Gen.Kernel.Frame
import proofs.«169851_j2757369004055_2_alg».proof.Proof.Gen.KernelIdeal
import proofs.«169851_j2757369004055_2_alg».proof.Proof.Gen.KernelIdeal.Skeleton
import proofs.«169851_j2757369004055_2_alg».proof.Proof.Gen.KernelIdeal.Launch
import proofs.«169851_j2757369004055_2_alg».proof.Proof.Gen.KernelIdeal.Points
import proofs.«169851_j2757369004055_2_alg».proof.Proof.Gen.KernelIdeal.Frame
import proofs.«169851_j2757369004055_2_alg».proof.Proof.Gen.ReferenceIdeal
import proofs.«169851_j2757369004055_2_alg».proof.Proof.Gen.KernelIdeal.Value
import proofs.«169851_j2757369004055_2_alg».proof.Proof.Gen.ReferenceIdeal.Run
import proofs.«169851_j2757369004055_2_alg».proof.Proof.Gen.ReferenceIdeal.Read
import proofs.«169851_j2757369004055_2_alg».proof.Proof.Gen.Pre_finite_inputs
import proofs.«169851_j2757369004055_2_alg».proof.Proof.PairGateArray
import proofs.«169851_j2757369004055_2_alg».proof.Proof.FiniteInputs
import proofs.«169851_j2757369004055_2_alg».proof.Proof.RefRows
import proofs.«169851_j2757369004055_2_alg».proof.Proof.KernelArray
import Idealize.ShloMosaic.Adequacy
import Idealize.ShloMosaic.Init

noncomputable section

namespace Cert.Proof

open Idealize.ShloMosaic Idealize.SL.Sem Cert.PairGate

/-- The word `1.0` denotes the extended real `1`. -/
theorem one_word : Ideal.ofBits .f32 0x3F800000#32 = 1 := by
  simp [Ideal.ofBits, Ideal.ieee, -EReal.coe_mul]; norm_num

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments as they were: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the six arguments, all of them arrays of reals, the kernel ends with the logistic form
    of the pair gate and the reference with the softmax form of the same arguments: one array. -/
theorem algebraic : Cert.algebraic_KernelIdeal_ReferenceIdeal := by
  intro m ρ m' ρ' hpre hagree
  refine ⟨fun c => Cert.KernelIdeal.Arr.gate m c, Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  obtain ⟨r0, r1, r2, r3, r4, r5⟩ := Cert.Pre_finite_inputs.Reals.reals_of_pre _ _ _ _ _ _ (hpre c)
  rw [Cert.ReferenceIdeal.Read.val_main_v27_eq, Cert.ReferenceIdeal.Rows.result_eq, (hagree c).1, (hagree c).2.1,
    (hagree c).2.2.1, (hagree c).2.2.2.1, (hagree c).2.2.2.2.1, (hagree c).2.2.2.2.2]
  show _ = resultLogistic _ _ _ _ _ _ (Ideal.ofBits .f32 0x3F800000#32) (Ideal.ofBits .f32 0x00000000#32)
  rw [one_word, Ideal.ofBits_zero_f32]
  exact (resultLogistic_eq_resultSoftmax _ _ _ _ _ _ r0 r1 r2 r3 r4 r5).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
